-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg9
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S1600000 32) (main_arg4 : IVec S1600000 32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩
abbrev S1600000x64 : Shape := ⟨2, ![1600000, 64]⟩
abbrev S16000x64 : Shape := ⟨2, ![16000, 64]⟩
abbrev S16000x1 : Shape := ⟨2, ![16000, 1]⟩
abbrev S16000 : Shape := ⟨1, ![16000]⟩

abbrev nBuf : Space → Nat
  | .hbm => 101
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S1600000x1, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .f32⟩
  | .hbm, ⟨100, _⟩ => ⟨S1600000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S16000x64, .f32⟩
  | .local _ .vmem, ⟨19, _⟩ => ⟨S16000x64, .f32⟩
  | .local _ .vmem, ⟨20, _⟩ => ⟨S16000x64, .f32⟩
  | .local _ .vmem, ⟨21, _⟩ => ⟨S16000x64, .f32⟩
  | .local _ .vmem, ⟨22, _⟩ => ⟨S16000x1, .f32⟩
  | .local _ .vmem, ⟨23, _⟩ => ⟨S16000x1, .f32⟩
  | .local _ .vmem, ⟨24, _⟩ => ⟨S16000x64, .f32⟩
  | .local _ .vmem, ⟨25, _⟩ => ⟨S16000x64, .f32⟩
  | .local _ .vmem, ⟨26, _⟩ => ⟨S16000x64, .f32⟩
  | .local _ .vmem, ⟨27, _⟩ => ⟨S16000x64, .f32⟩
  | .local _ .vmem, ⟨28, _⟩ => ⟨S16000x1, .f32⟩
  | .local _ .vmem, ⟨29, _⟩ => ⟨S16000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_14 : Ref sig .tc := ⟨.hbm, 82, rfl⟩
abbrev main_v55 : Ref sig .tc := ⟨.hbm, 83, rfl⟩
abbrev main_v56 : Ref sig .tc := ⟨.hbm, 84, rfl⟩
abbrev main_c_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_c_17 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  reduces_S16000x64_S16000 : S16000x64.Reduces [1] S16000
  shapeCasts_S16000_S16000x1 : S16000.ShapeCasts S16000x1
  inb_S16000x1_S16000x1_0_0 : ∀ a, (![0, 0] : Fin 2 → Nat) a + S16000x1.size a ≤ S16000x1.size a
  h_S16000x1 : 0 < S16000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S1600000x64.size a
  hwx2_0 : ∀ i : grid2.Coords, EltTy.bits .f32 = 32 ∨ (Rect.block (s := S1600000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S1600000x64.size a
  hwx2_1 : ∀ i : grid2.Coords, EltTy.bits .f32 = 32 ∨ (Rect.block (s := S1600000x64) S16000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x1.size a ≤ S1600000x1.size a
  hwx2_2 : ∀ i : grid2.Coords, EltTy.bits .f32 = 32 ∨ (Rect.block (s := S1600000x1) S16000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x64.size a ≤ S1600000x64.size a
  hwx3_0 : ∀ i : grid3.Coords, EltTy.bits .f32 = 32 ∨ (Rect.block (s := S1600000x64) S16000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x64.size a ≤ S1600000x64.size a
  hwx3_1 : ∀ i : grid3.Coords, EltTy.bits .f32 = 32 ∨ (Rect.block (s := S1600000x64) S16000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x1.size a ≤ S1600000x1.size a
  hwx3_2 : ∀ i : grid3.Coords, EltTy.bits .f32 = 32 ∨ (Rect.block (s := S1600000x1) S16000x1.size (cc3_transform_2 i) (hinb3_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S16000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S16000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S16000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S16000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S16000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S1600000x64, .f32⟩
  | .hbm, ⟨95, _⟩ => ⟨S_, .f32⟩
  | .hbm, ⟨96, _⟩ => ⟨S1600000, .f32⟩
  | .hbm, ⟨97, _⟩ => ⟨S1600000x1, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x64, .f32⟩
  | .hbm, ⟨116, _⟩ => ⟨S1600000x64, .f32⟩
  | .hbm, ⟨117, _⟩ => ⟨S_, .f32⟩
  | .hbm, ⟨118, _⟩ => ⟨S1600000, .f32⟩
  | .hbm, ⟨119, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.Spec.lean ====
/-
  Two mean-aggregating graph layers followed by a per-edge inner product, as ONE function of the argument arrays.

  With x the [100000,128] node features, (src, dst) the edge list, W·/b· the weights:
    mean(f)   = (Σ_{e : dst e = n} f[src e]) / max(deg n, 1)                      (the neighbour mean, rows of f)
    h1        = max(x·W1s + mean(x)·W1n + b1, 0)
    h2        = h1·W2s + mean(h1)·W2n + b2
    score(s,d)[e] = Σ_f h2[s e, f] · h2[d e, f]
  The gather / scatter-add chain of the neighbour mean and the row gather of the scores are carried as opaque host
  functions of their operands (both programs apply the same ones); only the dense stages and the per-edge inner
  product are read index by index, as sums over the contracted axis on the extended reals.
-/
import proofs.«152108_j27187142984033_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Sage

open Cert.ReferenceIdeal Cert.ReferenceIdeal.Gen Cert.ReferenceIdeal.Read
open Idealize.ShloMosaic Idealize.ShloMosaic.TcCoe Idealize.SL.Sem Idealize.ShloMosaic.StableHlo

abbrev Nodes128 := FVec Ideal S100000x128 .f32
abbrev Nodes64 := FVec Ideal S100000x64 .f32
abbrev Edges := (⟨S1600000, .i32⟩ : BufTy).Contents (Elt Ideal)
abbrev EdgeRows64 := FVec Ideal S1600000x64 .f32
abbrev Scores := FVec Ideal S1600000x1 .f32
abbrev W128 := FVec Ideal S128x128 .f32
abbrev W64 := FVec Ideal S128x64 .f32
abbrev B128 := FVec Ideal S128 .f32
abbrev B64 := FVec Ideal S64 .f32

/-! ## The function -/

/-- The neighbour mean of the rows of `feat`: the rows at `src` summed onto `dst`, divided by max(in-degree, 1). -/
def neighbourMean (feat : Nodes128) (src dst : Edges) : Nodes128 := val_main_v18 (F := Ideal) feat src dst

/-- A [100000,128] × [128,128] product. -/
def proj128 (x : Nodes128) (w : W128) : Nodes128 := val_main_v19 (F := Ideal) x w

/-- The first layer: x·Ws + mn·Wn + b, clamped below at zero. -/
def layer1 (x mn : Nodes128) (ws wn : W128) (b : B128) : Nodes128 :=
  maximumf (F := Ideal) (addf (F := Ideal) (addf (F := Ideal) (proj128 x ws) (proj128 mn wn)) (val_main_v23 (F := Ideal) b)) (val_main_call0_v0 (F := Ideal))

/-- A [100000,128] × [128,64] product. -/
def proj64 (x : Nodes128) (w : W64) : Nodes64 :=
  Host.dotGeneral (F := Ideal) dot_S100000x128_S128x64_S100000x64_1_0_0_1_n_n none x w

/-- The second layer: x·Ws + mn·Wn + b. -/
def layer2 (x mn : Nodes128) (ws wn : W64) (b : B64) : Nodes64 :=
  addf (F := Ideal) (addf (F := Ideal) (proj64 x ws) (proj64 mn wn)) (val_main_v49 (F := Ideal) b)

/-- The rows of `h` at the (wrapped) node ids `e`. -/
def edgeRows (h : Nodes64) (e : Edges) : EdgeRows64 :=
  Host.gather gather_S100000x64_S1600000x1_S1600000x64_1_0_n_n_0_1_164 h (val_main_v56 (F := Ideal) e)

/-- Row by row inner product of two [1600000,64] tables, as a column. -/
def edgeScore (hs hd : EdgeRows64) : Scores :=
  broadcastInDim S1600000x1 ![0] bcast_S1600000_S1600000x1_0
    (Host.reduceAdd (F := Ideal) (mulf (F := Ideal) hs hd) (val_main_cst_14 (F := Ideal)) reducesTo_S1600000x64_S1600000_d1 h_S_)

def hidden1 (x : Nodes128) (src dst : Edges) (w1s w1n : W128) (b1 : B128) : Nodes128 :=
  layer1 x (neighbourMean x src dst) w1s w1n b1

def hidden2 (x : Nodes128) (src dst : Edges) (w1s w1n : W128) (b1 : B128) (w2s w2n : W64) (b2 : B64) : Nodes64 :=
  layer2 (hidden1 x src dst w1s w1n b1) (neighbourMean (hidden1 x src dst w1s w1n b1) src dst) w2s w2n b2

/-- The scores of the edge list (es, ed) under the two-layer embedding computed over the graph (src, dst). -/
def score (x : Nodes128) (src dst es ed : Edges) (w1s w1n : W128) (b1 : B128) (w2s w2n : W64) (b2 : B64) : Scores :=
  edgeScore (edgeRows (hidden2 x src dst w1s w1n b1 w2s w2n b2) es) (edgeRows (hidden2 x src dst w1s w1n b1 w2s w2n b2) ed)

/-! ## The reference computes it -/

theorem ref_hidden1 (x : Nodes128) (src dst : Edges) (w1s w1n : W128) (b1 : B128) :
    val_main_v25 (F := Ideal) x src dst w1s w1n b1 = hidden1 x src dst w1s w1n b1 := rfl

theorem ref_hidden2 (x : Nodes128) (src dst : Edges) (w1s w1n : W128) (b1 : B128) (w2s w2n : W64) (b2 : B64) :
    val_main_v50 (F := Ideal) x src dst w1s w1n b1 w2s w2n b2 = hidden2 x src dst w1s w1n b1 w2s w2n b2 := rfl

theorem ref_pos (x : Nodes128) (src dst : Edges) (w1s w1n : W128) (b1 : B128) (w2s w2n : W64) (b2 : B64) :
    val_main_v67 (F := Ideal) x src dst w1s w1n b1 w2s w2n b2 = score x src dst src dst w1s w1n b1 w2s w2n b2 := rfl

theorem ref_neg (x : Nodes128) (src dst ns nd : Edges) (w1s w1n : W128) (b1 : B128) (w2s w2n : W64) (b2 : B64) :
    val_main_v84 (F := Ideal) x src dst ns nd w1s w1n b1 w2s w2n b2 = score x src dst ns nd w1s w1n b1 w2s w2n b2 := rfl

end Cert.Sage

end
-- ==== Proof.KernelRun.lean ====
/-
  The idealized kernel program's run with its two result arrays named.

  The program is eight segments — four stretches of host operations, each followed by one tiled kernel region — and the
  library's launch theorem for such a list gives, at every final state, each unscoped buffer at the contents the last
  segment boundary holds. Read at the two result buffers this is the value the composition of the segments computes;
  read at the arguments, the launch contents.
-/
import proofs.«152108_j27187142984033_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last boundary's contents and the
    arguments as launched. -/
theorem run_results : θ_run defs (onTc (τ := τ) (main (F := F))) ⟨m, fun _ => 0, ρ⟩ (fun r => ∀ c : Dev nD,
      r.2.mem ((c.tc : Thread nD τ).loc main_v54) = W8 m ρ c (Proc.devRef .tc main_v54)
      ∧ r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v54 (by decide)),
       h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Sage.KernelRun

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.DenseBody.lean ====
/-
  One block of a dense stage: the body casts a [5000,128] block of features, a [5000,128] block of neighbour means and the
  two weight matrices to bf16 (the identity on extended reals), multiplies features by the self weights and means by the
  neighbour weights into zero accumulators, adds the two products and the bias row, and — in the first layer — clamps
  below at zero. Read at (p, q):
     Σ_k x0[p,k]·w0[k,q] + Σ_k x1[p,k]·w1[k,q] + b[q]      (first layer: the maximum of that and 0).
-/
import proofs.«152108_j27187142984033_1_alg».proof.Proof.Gen.KernelIdeal.Skeleton
import proofs.«152108_j27187142984033_1_alg».proof.Proof.LibPlainDot
import Idealize.ShloMosaic.Lib.Pipeline.Value
import Idealize.ShloMosaic.Lib.ValueIdx
import Idealize.ShloMosaic.PureOps.Ideal.Laws

noncomputable section

namespace Cert.Sage.DenseBody

open Cert.KernelIdeal Cert.KernelIdeal.Gen
open Idealize.ShloMosaic Idealize.ShloMosaic.ValueIdx
open scoped BigOperators

/-- The row index of the left operand is the output's row, its column the contracted coordinate; the right operand's
    row is the contracted coordinate, its column the output's column. -/
theorem dot128_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot128_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot128_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot128_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at (p, q): the sum over the contracted axis. -/
theorem blockProduct128 (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) :=
  (Ideal.matmul_constant_zero_apply _ none a b (ix2 p q)).trans
    (PlainDot.sum_contr_eq dot_S5000x128_S128x128_S5000x128_1_0_0_1_n_n rfl rfl dot128_l0 dot128_l1 dot128_r0 dot128_r1 a b (ix2 p q))

/-- The [128] bias cast to [1,128] and spread over the block's rows, at (p, q). -/
theorem blockBias128 (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) (fun a => match a with
    | ⟨0, _⟩ => rfl
    | ⟨1, _⟩ => by show q.val = if (128 : Nat) = 1 then 0 else q.val; rw [if_neg (by decide)])).trans ?_
  exact shapeCast_apply b shapeCasts_S128_S1x128 (ix2 (0 : Fin 1) q) (ix1 q) (by
    rw [Shape.rowMajor_val_two, Shape.rowMajor_val_one]
    show q.val = 0 * 128 + q.val
    omega)

/-- The row index of the left operand is the output's row, its column the contracted coordinate; the right operand's
    row is the contracted coordinate, its column the output's column. -/
theorem dot64_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot64_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot64_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot64_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block product into the zero accumulator, at (p, q): the sum over the contracted axis. -/
theorem blockProduct64 (a : FVec Ideal S5000x128 .bf16) (b : FVec Ideal S128x64 .bf16) (p : Fin 5000) (q : Fin 64) :
    matmul (F := Ideal) dot_S5000x128_S128x64_S5000x64_1_0_0_1_n_n none a b (constant (F := Ideal) S5000x64 .f32 0x00000000#32) (ix2 p q)
      = ∑ k : Fin 128, a (ix2 p k) * b (ix2 k q) :=
  (Ideal.matmul_constant_zero_apply _ none a b (ix2 p q)).trans
    (PlainDot.sum_contr_eq dot_S5000x128_S128x64_S5000x64_1_0_0_1_n_n rfl rfl dot64_l0 dot64_l1 dot64_r0 dot64_r1 a b (ix2 p q))

/-- The [64] bias cast to [1,64] and spread over the block's rows, at (p, q). -/
theorem blockBias64 (b : FVec Ideal S64 .f32) (p : Fin 5000) (q : Fin 64) :
    broadcastTo S5000x64 (shapeCast S1x64 b shapeCasts_S64_S1x64) broadcasts_S1x64_S5000x64 (ix2 p q) = b (ix1 q) := by
  refine (broadcastTo_apply _ broadcasts_S1x64_S5000x64 (ix2 p q) (ix2 (0 : Fin 1) q) (fun a => match a with
    | ⟨0, _⟩ => rfl
    | ⟨1, _⟩ => by show q.val = if (64 : Nat) = 1 then 0 else q.val; rw [if_neg (by decide)])).trans ?_
  exact shapeCast_apply b shapeCasts_S64_S1x64 (ix2 (0 : Fin 1) q) (ix1 q) (by
    rw [Shape.rowMajor_val_two, Shape.rowMajor_val_one]
    show q.val = 0 * 64 + q.val
    omega)

/-- The first layer's stored block at (p, q). -/
theorem layer1_payload (x0 x1 : FVec Ideal S5000x128 .f32) (w0 w1 : FVec Ideal S128x128 .f32) (b : FVec Ideal S128 .f32)
    (p : Fin 5000) (q : Fin 128) :
    k0_pay1 (F := Ideal) x0 x1 w0 w1 b (ix2 p q)
      = max ((∑ k : Fin 128, x0 (ix2 p k) * w0 (ix2 k q)) + (∑ k : Fin 128, x1 (ix2 p k) * w1 (ix2 k q)) + b (ix1 q))
          (Ideal.ofBits .f32 0x00000000#32) := by
  unfold k0_pay1
  simp only [shapeCast_self]
  refine congrArg₂ max (congrArg₂ (· + ·) (congrArg₂ (· + ·) ?_ ?_) ?_) rfl
  · exact blockProduct128 _ _ p q
  · exact blockProduct128 _ _ p q
  · exact blockBias128 b p q

/-- The second layer's stored block at (p, q). -/
theorem layer2_payload (x0 x1 : FVec Ideal S5000x128 .f32) (w0 w1 : FVec Ideal S128x64 .f32) (b : FVec Ideal S64 .f32)
    (p : Fin 5000) (q : Fin 64) :
    k1_pay1 (F := Ideal) x0 x1 w0 w1 b (ix2 p q)
      = (∑ k : Fin 128, x0 (ix2 p k) * w0 (ix2 k q)) + (∑ k : Fin 128, x1 (ix2 p k) * w1 (ix2 k q)) + b (ix1 q) := by
  unfold k1_pay1
  simp only [shapeCast_self]
  refine congrArg₂ (· + ·) (congrArg₂ (· + ·) ?_ ?_) ?_
  · exact blockProduct64 _ _ p q
  · exact blockProduct64 _ _ p q
  · exact blockBias64 b p q

end Cert.Sage.DenseBody

end
-- ==== Proof.LibRowReduce.lean ====
/-
  Reductions along the rows of a two-axis table, read at a row.

  Reducing an [a, b] table over its second axis gives, at row p, the sum (or the running maximum from the accumulator's
  value) of the b entries of that row: the general one-axis laws with the inserted coordinate spelt out.
-/
import Idealize.ShloMosaic.PureOps.Ideal.Laws
import Idealize.ShloMosaic.Lib.ValueIdx

noncomputable section

namespace Idealize.ShloMosaic.RowReduce

open Idealize.ShloMosaic Idealize.ShloMosaic.ValueIdx
open scoped BigOperators

variable {φ : FTy}

/-- Putting the column coordinate back into a row index. -/
theorem lift_row {a b : ℕ} (h : (⟨2, ![a, b]⟩ : Shape).Reduces [(1 : Fin 2)] ⟨1, ![a]⟩) (p : Fin a) (k : Fin b) :
    h.lift (ix1 p) k = ix2 p k := by
  funext c
  apply Fin.ext
  show h.liftVal (ix1 p) k.val c = (ix2 p k c).val
  unfold Shape.Reduces.liftVal
  match c with
  | ⟨0, _⟩ => first | rfl | simp
  | ⟨1, _⟩ => first | rfl | simp

/-- The sum over a row. -/
theorem rowSum_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ k : Fin b, src (h.lift (ix1 p) k) = _
  exact Finset.sum_congr rfl fun k _ => congrArg src (lift_row h p k)

/-- The maximum over a row, folded from the accumulator's value. -/
theorem rowMax_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun k => src (h.lift (ix1 p) k)) = _
  exact congrArg (fun f : Fin b → EReal => (Finset.univ : Finset (Fin b)).fold max (Ideal.ofBits φ acc) f) (funext fun k => congrArg src (lift_row h p k))

end Idealize.ShloMosaic.RowReduce

end
-- ==== Proof.SpecRead.lean ====
/-
  The dense stages and the per-edge inner product of the specification read at an index:
    layer1 x mn Ws Wn b [r, q] = max(Σ_k x[r,k]·Ws[k,q] + Σ_k mn[r,k]·Wn[k,q] + b[q], 0)
    layer2 x mn Ws Wn b [r, q] =     Σ_k x[r,k]·Ws[k,q] + Σ_k mn[r,k]·Wn[k,q] + b[q]
    edgeScore hs hd [r, 0]     = Σ_f hs[r,f]·hd[r,f]
  (a host product is the sum over the contracted axis, a host row sum the initial value — the zero word — plus the sum
  over the row; the bias is the [128] or [64] vector read at the column).
-/
import proofs.«152108_j27187142984033_1_alg».proof.Proof.Spec
import proofs.«152108_j27187142984033_1_alg».proof.Proof.LibRowReduce
import proofs.«152108_j27187142984033_1_alg».proof.Proof.LibPlainDot

noncomputable section

namespace Cert.Sage

open Cert.ReferenceIdeal Cert.ReferenceIdeal.Gen Cert.ReferenceIdeal.Read
open Idealize.ShloMosaic Idealize.ShloMosaic.ValueIdx
open scoped BigOperators

/-- A [100000,128] × [128,128] product at (r, q). -/
theorem proj128_apply (x : Nodes128) (w : W128) (r : Fin 100000) (q : Fin 128) :
    proj128 x w (ix2 r q) = ∑ k : Fin 128, x (ix2 r k) * w (ix2 k q) := by
  unfold proj128
  rw [val_main_v19_apply]
  refine Finset.sum_congr rfl fun k _ => ?_
  have el : lidx_main_v19 (ix2 r q) k = ix2 r k := funext fun a => by match a with | ⟨0, _⟩ => rfl | ⟨1, _⟩ => rfl
  have er : ridx_main_v19 (ix2 r q) k = ix2 k q := funext fun a => by match a with | ⟨0, _⟩ => rfl | ⟨1, _⟩ => rfl
  rw [el, er]

/-- A [100000,128] × [128,64] product at (r, q). -/
theorem proj64_apply (x : Nodes128) (w : W64) (r : Fin 100000) (q : Fin 64) :
    proj64 x w (ix2 r q) = ∑ k : Fin 128, x (ix2 r k) * w (ix2 k q) := by
  unfold proj64
  simp only [Host.dotGeneral]
  rw [Ideal.dotGeneral_apply]
  exact PlainDot.sum_contr_eq dot_S100000x128_S128x64_S100000x64_1_0_0_1_n_n rfl rfl
    lhs_main_v45_0 lhs_main_v45_1 rhs_main_v45_0 rhs_main_v45_1 x w (ix2 r q)

/-- The [128] bias spread over the rows, at (r, q). -/
theorem bias128_apply (b : B128) (r : Fin 100000) (q : Fin 128) : val_main_v23 (F := Ideal) b (ix2 r q) = b (ix1 q) := by
  rw [val_main_v23_apply, val_main_v22_apply]
  exact congrArg b (funext fun a => by match a with | ⟨0, _⟩ => rfl)

/-- The [64] bias spread over the rows, at (r, q). -/
theorem bias64_apply (b : B64) (r : Fin 100000) (q : Fin 64) : val_main_v49 (F := Ideal) b (ix2 r q) = b (ix1 q) := by
  rw [val_main_v49_apply, val_main_v48_apply]
  exact congrArg b (funext fun a => by match a with | ⟨0, _⟩ => rfl)

theorem layer1_apply (x mn : Nodes128) (ws wn : W128) (b : B128) (r : Fin 100000) (q : Fin 128) :
    layer1 x mn ws wn b (ix2 r q)
      = max ((∑ k : Fin 128, x (ix2 r k) * ws (ix2 k q)) + (∑ k : Fin 128, mn (ix2 r k) * wn (ix2 k q)) + b (ix1 q))
          (Ideal.ofBits .f32 0x00000000#32) := by
  unfold layer1
  show max (proj128 x ws (ix2 r q) + proj128 mn wn (ix2 r q) + val_main_v23 (F := Ideal) b (ix2 r q))
    (val_main_call0_v0 (F := Ideal) (ix2 r q)) = _
  rw [proj128_apply, proj128_apply, bias128_apply, val_main_call0_v0_apply, val_main_call0_cst_apply]
  rfl

theorem layer2_apply (x mn : Nodes128) (ws wn : W64) (b : B64) (r : Fin 100000) (q : Fin 64) :
    layer2 x mn ws wn b (ix2 r q)
      = (∑ k : Fin 128, x (ix2 r k) * ws (ix2 k q)) + (∑ k : Fin 128, mn (ix2 r k) * wn (ix2 k q)) + b (ix1 q) := by
  unfold layer2
  show proj64 x ws (ix2 r q) + proj64 mn wn (ix2 r q) + val_main_v49 (F := Ideal) b (ix2 r q) = _
  rw [proj64_apply, proj64_apply, bias64_apply]

theorem edge_reduces : S1600000x64.Reduces [(1 : Fin 2)] S1600000 := by decide

theorem edgeScore_apply (hs hd : EdgeRows64) (r : Fin 1600000) (u : Fin 1) :
    edgeScore hs hd (ix2 r u) = ∑ f : Fin 64, hs (ix2 r f) * hd (ix2 r f) := by
  unfold edgeScore
  refine (broadcastInDim_apply _ bcast_S1600000_S1600000x1_0 _ (ix2 r u) (ix1 r) (fun a => match a with
    | ⟨0, _⟩ => by show r.val = if (1600000 : Nat) = 1 then 0 else r.val; rw [if_neg (by decide)])).trans ?_
  simp only [Host.reduceAdd, Ideal.hostReduceAdd_def]
  rw [Ideal.hostReduceAdd_single reducesTo_S1600000x64_S1600000_d1 edge_reduces]
  rw [show val_main_cst_14 (F := Ideal) (Shape.Idx.first h_S_) = 0 from Ideal.ofBits_zero_f32, zero_add]
  exact Finset.sum_congr rfl fun k _ =>
    congrArg₂ (· * ·) (congrArg hs (RowReduce.lift_row edge_reduces r k)) (congrArg hd (RowReduce.lift_row edge_reduces r k))

end Cert.Sage

end
-- ==== Proof.Layer1Region.lean ====
/-
  Region 0 (the first layer): the grid's 20 points each take rows 5000·t … 5000·t + 4999 of the feature table and of the
  neighbour-mean table, the whole of the two weight matrices and of the bias, and write the same rows of the [100000,128]
  result; the blocks tile the result, which ends holding the layer's function of the five arrays as the region finds them.
-/
import proofs.«152108_j27187142984033_1_alg».proof.Proof.Gen.KernelIdeal.Frame
import proofs.«152108_j27187142984033_1_alg».proof.Proof.DenseBody
import proofs.«152108_j27187142984033_1_alg».proof.Proof.SpecRead

set_option maxRecDepth 16384

noncomputable section

namespace Cert.Sage.Layer1Region

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The row-tiled windows (features, means, result) sit at block (t, 0) at point t; the weights and the bias at block 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- One stored entry: the body over blocks that are rows of the two tables, the whole weights and the whole bias is the
    layer at that row and column. -/
theorem point_eq (x mn : Sage.Nodes128) (ws wn : Sage.W128) (b : Sage.B128)
    (x0 x1 : FVec Ideal S5000x128 .f32) (w0 w1 : FVec Ideal S128x128 .f32) (b0 : FVec Ideal S128 .f32)
    (p : Fin 5000) (q : Fin 128) (r : Fin 100000)
    (h0 : ∀ k : Fin 128, x0 (ix2 p k) = x (ix2 r k)) (h1 : ∀ k : Fin 128, x1 (ix2 p k) = mn (ix2 r k))
    (h2 : ∀ k : Fin 128, w0 (ix2 k q) = ws (ix2 k q)) (h3 : ∀ k : Fin 128, w1 (ix2 k q) = wn (ix2 k q))
    (h4 : b0 (ix1 q) = b (ix1 q)) :
    k0_pay1 (F := Ideal) x0 x1 w0 w1 b0 (ix2 p q) = Sage.layer1 x mn ws wn b (ix2 r q) := by
  rw [DenseBody.layer1_payload, Sage.layer1_apply]
  simp only [h0, h1, h2, h3, h4]

/-- What point t writes back is block t of the layer's table. -/
theorem flushed_eq (c : Dev nD) (t : Fin cfg0.N) :
    (dat0 V c).flushed 5 t = ((cfg0.win 5).blk t).view.read (Elt Ideal)
      (Sage.layer1 (V c main_arg0) (V c main_v18) (V c main_arg5) (V c main_arg6) (V c main_arg7)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S128) origin1]
  obtain ⟨e00, e01, e10, e11, e20, e21, e30, e31, e40, e50, e51⟩ := block_index t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  show k0_pay1 (F := Ideal) (iblk0 V c 0 t) (iblk0 V c 1 t) (iblk0 V c 2 t) (iblk0 V c 3 t) (iblk0 V c 4 t) (ix2 p q)
    = Sage.layer1 (V c main_arg0) (V c main_v18) (V c main_arg5) (V c main_arg6) (V c main_arg7) (((cfg0.win 5).blk t).view.emb (ix2 p q))
  rw [hemb]
  refine point_eq _ _ _ _ _ _ _ _ _ _ p q _ (fun k => ?_) (fun k => ?_) (fun k => ?_) (fun k => ?_) ?_
  · have hk : k.val < 128 := k.isLt
    show V c main_arg0 (((cfg0.win 0).blk t).view.emb (ix2 p k)) = V c main_arg0 (ix2 (⟨t.val * 5000 + p.val, by omega⟩ : Fin 100000) k)
    refine congrArg (V c main_arg0) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · have hk : k.val < 128 := k.isLt
    show V c main_v18 (((cfg0.win 1).blk t).view.emb (ix2 p k)) = V c main_v18 (ix2 (⟨t.val * 5000 + p.val, by omega⟩ : Fin 100000) k)
    refine congrArg (V c main_v18) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  · have hk : k.val < 128 := k.isLt
    show V c main_arg5 (((cfg0.win 2).blk t).view.emb (ix2 k q)) = V c main_arg5 (ix2 k q)
    refine congrArg (V c main_arg5) (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · have hk : k.val < 128 := k.isLt
    show V c main_arg6 (((cfg0.win 3).blk t).view.emb (ix2 k q)) = V c main_arg6 (ix2 k q)
    refine congrArg (V c main_arg6) (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  · show V c main_arg7 (((cfg0.win 4).blk t).view.emb (ix1 q)) = V c main_arg7 (ix1 q)
    refine congrArg (V c main_arg7) (funext fun a => Fin.ext ?_)
    match a with
    | ⟨0, _⟩ => show win0_4.index t (0 : Fin 1) * 128 + 1 * q.val = q.val; rw [e40]; omega

/-- An index of the result is in point t's block iff its row is among the block's rows. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- The result table after the region. -/
theorem result_eq (c : Dev nD) : (dat0 V c).arrAt 5 cfg0.N
    = Sage.layer1 (V c main_arg0) (V c main_v18) (V c main_arg5) (V c main_arg6) (V c main_arg7) :=
  (dat0 V c).arrAt_eq_of_cover 5 _ (fun t _ => flushed_eq V c t) fun i => by
    have hi0 : (i 0).val < 100000 := (i 0).isLt
    have hi1 : (i 1).val < 128 := (i 1).isLt
    refine ⟨⟨(i 0).val / 5000, by show (i 0).val / 5000 < 20; omega⟩, flush0_5 _, ?_⟩
    rw [mem_block]
    obtain ⟨-, -, -, -, -, -, -, -, -, e50, e51⟩ := block_index ⟨(i 0).val / 5000, by show (i 0).val / 5000 < 20; omega⟩
    intro a
    match a with
    | ⟨0, _⟩ =>
      show win0_5.index _ (0 : Fin 2) * 5000 ≤ (i 0).val ∧ (i 0).val < win0_5.index _ (0 : Fin 2) * 5000 + 5000
      rw [e50]; show (i 0).val / 5000 * 5000 ≤ (i 0).val ∧ (i 0).val < (i 0).val / 5000 * 5000 + 5000; omega
    | ⟨1, _⟩ =>
      show win0_5.index _ (1 : Fin 2) * 128 ≤ (i 1).val ∧ (i 1).val < win0_5.index _ (1 : Fin 2) * 128 + 128
      rw [e51]; omega

end Cert.Sage.Layer1Region

end
-- ==== Proof.Layer2Region.lean ====
/-
  Region 1 (the second layer): the grid's 20 points each take rows 5000·t … 5000·t + 4999 of the feature table and of the
  neighbour-mean table, the whole of the two weight matrices and of the bias, and write the same rows of the [100000,64]
  result; the blocks tile the result, which ends holding the layer's function of the five arrays as the region finds them.
-/
import proofs.«152108_j27187142984033_1_alg».proof.Proof.Gen.KernelIdeal.Frame
import proofs.«152108_j27187142984033_1_alg».proof.Proof.DenseBody
import proofs.«152108_j27187142984033_1_alg».proof.Proof.SpecRead

set_option maxRecDepth 16384

noncomputable section

namespace Cert.Sage.Layer2Region

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The row-tiled windows (features, means, result) sit at block (t, 0) at point t; the weights and the bias at block 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- One stored entry: the body over blocks that are rows of the two tables, the whole weights and the whole bias is the
    layer at that row and column. -/
theorem point_eq (x mn : Sage.Nodes128) (ws wn : Sage.W64) (b : Sage.B64)
    (x0 x1 : FVec Ideal S5000x128 .f32) (w0 w1 : FVec Ideal S128x64 .f32) (b0 : FVec Ideal S64 .f32)
    (p : Fin 5000) (q : Fin 64) (r : Fin 100000)
    (h0 : ∀ k : Fin 128, x0 (ix2 p k) = x (ix2 r k)) (h1 : ∀ k : Fin 128, x1 (ix2 p k) = mn (ix2 r k))
    (h2 : ∀ k : Fin 128, w0 (ix2 k q) = ws (ix2 k q)) (h3 : ∀ k : Fin 128, w1 (ix2 k q) = wn (ix2 k q))
    (h4 : b0 (ix1 q) = b (ix1 q)) :
    k1_pay1 (F := Ideal) x0 x1 w0 w1 b0 (ix2 p q) = Sage.layer2 x mn ws wn b (ix2 r q) := by
  rw [DenseBody.layer2_payload, Sage.layer2_apply]
  simp only [h0, h1, h2, h3, h4]

/-- What point t writes back is block t of the layer's table. -/
theorem flushed_eq (c : Dev nD) (t : Fin cfg1.N) :
    (dat1 V c).flushed 5 t = ((cfg1.win 5).blk t).view.read (Elt Ideal)
      (Sage.layer2 (V c main_v19) (V c main_v38) (V c main_arg8) (V c main_arg9) (V c main_arg10)) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x64) origin2, View.ld_unit_zero (S := S64) origin1]
  obtain ⟨e00, e01, e10, e11, e20, e21, e30, e31, e40, e50, e51⟩ := block_index t
  have ht : t.val < 20 := t.isLt
  funext j
  obtain ⟨p, q, rfl⟩ : ∃ (p : Fin 5000) (q : Fin 64), j = ix2 p q := ⟨j 0, j 1, eq_ix2 j⟩
  have hp : p.val < 5000 := p.isLt
  have hq : q.val < 64 := q.isLt
  have hemb : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 64 + 1 * q.val = q.val; rw [e51]; omega
  show k1_pay1 (F := Ideal) (iblk1 V c 0 t) (iblk1 V c 1 t) (iblk1 V c 2 t) (iblk1 V c 3 t) (iblk1 V c 4 t) (ix2 p q)
    = Sage.layer2 (V c main_v19) (V c main_v38) (V c main_arg8) (V c main_arg9) (V c main_arg10) (((cfg1.win 5).blk t).view.emb (ix2 p q))
  rw [hemb]
  refine point_eq _ _ _ _ _ _ _ _ _ _ p q _ (fun k => ?_) (fun k => ?_) (fun k => ?_) (fun k => ?_) ?_
  · have hk : k.val < 128 := k.isLt
    show V c main_v19 (((cfg1.win 0).blk t).view.emb (ix2 p k)) = V c main_v19 (ix2 (⟨t.val * 5000 + p.val, by omega⟩ : Fin 100000) k)
    refine congrArg (V c main_v19) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · have hk : k.val < 128 := k.isLt
    show V c main_v38 (((cfg1.win 1).blk t).view.emb (ix2 p k)) = V c main_v38 (ix2 (⟨t.val * 5000 + p.val, by omega⟩ : Fin 100000) k)
    refine congrArg (V c main_v38) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  · have hk : k.val < 128 := k.isLt
    show V c main_arg8 (((cfg1.win 2).blk t).view.emb (ix2 k q)) = V c main_arg8 (ix2 k q)
    refine congrArg (V c main_arg8) (funext fun a => Fin.ext ?_)
    match a with
    | ⟨0, _⟩ => show win1_2.index t (0 : Fin 2) * 128 + 1 * k.val = k.val; rw [e20]; omega
    | ⟨1, _⟩ => show win1_2.index t (1 : Fin 2) * 64 + 1 * q.val = q.val; rw [e21]; omega
  · have hk : k.val < 128 := k.isLt
    show V c main_arg9 (((cfg1.win 3).blk t).view.emb (ix2 k q)) = V c main_arg9 (ix2 k q)
    refine congrArg (V c main_arg9) (funext fun a => Fin.ext ?_)
    match a with
    | ⟨0, _⟩ => show win1_3.index t (0 : Fin 2) * 128 + 1 * k.val = k.val; rw [e30]; omega
    | ⟨1, _⟩ => show win1_3.index t (1 : Fin 2) * 64 + 1 * q.val = q.val; rw [e31]; omega
  · show V c main_arg10 (((cfg1.win 4).blk t).view.emb (ix1 q)) = V c main_arg10 (ix1 q)
    refine congrArg (V c main_arg10) (funext fun a => Fin.ext ?_)
    match a with
    | ⟨0, _⟩ => show win1_4.index t (0 : Fin 1) * 64 + 1 * q.val = q.val; rw [e40]; omega

/-- An index of the result is in point t's block iff its row is among the block's rows. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- The result table after the region. -/
theorem result_eq (c : Dev nD) : (dat1 V c).arrAt 5 cfg1.N
    = Sage.layer2 (V c main_v19) (V c main_v38) (V c main_arg8) (V c main_arg9) (V c main_arg10) :=
  (dat1 V c).arrAt_eq_of_cover 5 _ (fun t _ => flushed_eq V c t) fun i => by
    have hi0 : (i 0).val < 100000 := (i 0).isLt
    have hi1 : (i 1).val < 64 := (i 1).isLt
    refine ⟨⟨(i 0).val / 5000, by show (i 0).val / 5000 < 20; omega⟩, flush1_5 _, ?_⟩
    rw [mem_block]
    obtain ⟨-, -, -, -, -, -, -, -, -, e50, e51⟩ := block_index ⟨(i 0).val / 5000, by show (i 0).val / 5000 < 20; omega⟩
    intro a
    match a with
    | ⟨0, _⟩ =>
      show win1_5.index _ (0 : Fin 2) * 5000 ≤ (i 0).val ∧ (i 0).val < win1_5.index _ (0 : Fin 2) * 5000 + 5000
      rw [e50]; show (i 0).val / 5000 * 5000 ≤ (i 0).val ∧ (i 0).val < (i 0).val / 5000 * 5000 + 5000; omega
    | ⟨1, _⟩ =>
      show win1_5.index _ (1 : Fin 2) * 64 ≤ (i 1).val ∧ (i 1).val < win1_5.index _ (1 : Fin 2) * 64 + 64
      rw [e51]; omega

end Cert.Sage.Layer2Region

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.EdgeBody.lean ====
/-
  One block of the per-edge inner product: the body multiplies two [16000,64] blocks entry by entry, sums each row,
  and stores the row sums as a [16000,1] column. Read at row p: Σ_f x0[p,f] · x1[p,f] on the extended reals.
-/
import proofs.«152108_j27187142984033_1_alg».proof.Proof.Gen.KernelIdeal.Skeleton
import proofs.«152108_j27187142984033_1_alg».proof.Proof.LibRowReduce
import proofs.«152108_j27187142984033_1_alg».proof.Proof.LibColumnLayout
import Idealize.ShloMosaic.Lib.Pipeline.Value
import Idealize.ShloMosaic.Lib.ValueIdx
import Idealize.ShloMosaic.PureOps.Ideal.Laws

noncomputable section

namespace Cert.Sage.EdgeBody

open Cert.KernelIdeal Cert.KernelIdeal.Gen
open Idealize.ShloMosaic Idealize.ShloMosaic.ValueIdx
open scoped BigOperators

/-- Row p of the stored column is the inner product of row p of the two loaded blocks (region 2's body). -/
theorem pos_payload (x0 x1 : FVec Ideal S16000x64 .f32) (p : Fin 16000) (u : Fin 1) :
    k2_pay1 (F := Ideal) x0 x1 (ix2 p u) = ∑ f : Fin 64, x0 (ix2 p f) * x1 (ix2 p f) := by
  unfold k2_pay1
  simp only [shapeCast_self]
  refine (ColumnLayout.shapeCast_a_a1_apply _ _ p u).trans ?_
  refine (RowReduce.rowSum_apply _ _ _ _ _ p).trans ?_
  rfl

/-- The same for region 3's body. -/
theorem neg_payload (x0 x1 : FVec Ideal S16000x64 .f32) (p : Fin 16000) (u : Fin 1) :
    k3_pay1 (F := Ideal) x0 x1 (ix2 p u) = ∑ f : Fin 64, x0 (ix2 p f) * x1 (ix2 p f) := by
  unfold k3_pay1
  simp only [shapeCast_self]
  refine (ColumnLayout.shapeCast_a_a1_apply _ _ p u).trans ?_
  refine (RowReduce.rowSum_apply _ _ _ _ _ p).trans ?_
  rfl

end Cert.Sage.EdgeBody

end
-- ==== Proof.PosRegion.lean ====
/-
  Region 2 (the positive-edge scores): the grid's 100 points each take rows 16000·t … 16000·t + 15999 of the two gathered
  [1600000,64] tables and write the same rows of the [1600000,1] result, so the blocks tile the result and it ends
  holding the row-by-row inner product of the two tables as the region finds them.
-/
import proofs.«152108_j27187142984033_1_alg».proof.Proof.Gen.KernelIdeal.Frame
import proofs.«152108_j27187142984033_1_alg».proof.Proof.EdgeBody
import proofs.«152108_j27187142984033_1_alg».proof.Proof.SpecRead

set_option maxRecDepth 16384

noncomputable section

namespace Cert.Sage.PosRegion

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Every window's block index at point t is (t, 0). -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- One stored entry: the body's row sum over blocks that are rows of the two tables is the score at that row. -/
theorem point_eq (hs hd : Sage.EdgeRows64) (x0 x1 : FVec Ideal S16000x64 .f32) (p : Fin 16000) (u : Fin 1) (r : Fin 1600000)
    (h0 : ∀ f : Fin 64, x0 (ix2 p f) = hs (ix2 r f)) (h1 : ∀ f : Fin 64, x1 (ix2 p f) = hd (ix2 r f)) :
    k2_pay1 (F := Ideal) x0 x1 (ix2 p u) = Sage.edgeScore hs hd (ix2 r u) := by
  rw [EdgeBody.pos_payload, Sage.edgeScore_apply]
  exact Finset.sum_congr rfl fun f _ => by rw [h0, h1]

/-- What point t writes back is block t of the score column. -/
theorem flushed_eq (c : Dev nD) (t : Fin cfg2.N) :
    (dat2 V c).flushed 2 t = ((cfg2.win 2).blk t).view.read (Elt Ideal) (Sage.edgeScore (V c main_v46) (V c main_v53)) := by
  show (cfg2.win 2).cut (grid2.coords t) ((dat2 V c).after 2 t) = _
  rw [after2_2]
  unfold out2_2
  rw [View.canon_unit_zero origin]
  simp only [View.ld_unit_zero (S := S16000x64) origin]
  obtain ⟨e00, e01, e10, e11, e20, e21⟩ := block_index t
  have ht : t.val < 100 := t.isLt
  have key : ∀ (p : Fin 16000) (u : Fin 1) (hr : t.val * 16000 + p.val < 1600000),
      k2_pay1 (F := Ideal) (iblk2 V c 0 t) (iblk2 V c 1 t) (ix2 p u)
        = Sage.edgeScore (V c main_v46) (V c main_v53) (ix2 (⟨t.val * 16000 + p.val, hr⟩ : Fin 1600000) u) := by
    intro p u hr
    have hp : p.val < 16000 := p.isLt
    refine point_eq _ _ _ _ p u _ (fun f => ?_) (fun f => ?_)
    · show V c main_v46 (((cfg2.win 0).blk t).view.emb (ix2 p f)) = V c main_v46 (ix2 (⟨t.val * 16000 + p.val, hr⟩ : Fin 1600000) f)
      refine congrArg (V c main_v46) (funext fun a => Fin.ext ?_)
      match a with
      | ⟨0, _⟩ => show win2_0.index t (0 : Fin 2) * 16000 + 1 * p.val = t.val * 16000 + p.val; rw [e00]; omega
      | ⟨1, _⟩ => show win2_0.index t (1 : Fin 2) * 64 + 1 * f.val = f.val; rw [e01]; omega
    · show V c main_v53 (((cfg2.win 1).blk t).view.emb (ix2 p f)) = V c main_v53 (ix2 (⟨t.val * 16000 + p.val, hr⟩ : Fin 1600000) f)
      refine congrArg (V c main_v53) (funext fun a => Fin.ext ?_)
      match a with
      | ⟨0, _⟩ => show win2_1.index t (0 : Fin 2) * 16000 + 1 * p.val = t.val * 16000 + p.val; rw [e10]; omega
      | ⟨1, _⟩ => show win2_1.index t (1 : Fin 2) * 64 + 1 * f.val = f.val; rw [e11]; omega
  generalize k2_pay1 (F := Ideal) (iblk2 V c 0 t) (iblk2 V c 1 t) = Y at key ⊢
  generalize Sage.edgeScore (V c main_v46) (V c main_v53) = G at key ⊢
  funext j
  obtain ⟨p, u, rfl⟩ : ∃ (p : Fin 16000) (u : Fin 1), j = ix2 p u := ⟨j 0, j 1, eq_ix2 j⟩
  have hp : p.val < 16000 := p.isLt
  have hu : u.val = 0 := by omega
  have hemb : ((cfg2.win 2).blk t).view.emb (ix2 p u) = ix2 (⟨t.val * 16000 + p.val, by omega⟩ : Fin 1600000) u := by
    funext a; apply Fin.ext
    match a with
    | ⟨0, _⟩ => show win2_2.index t (0 : Fin 2) * 16000 + 1 * p.val = t.val * 16000 + p.val; rw [e20]; omega
    | ⟨1, _⟩ => show win2_2.index t (1 : Fin 2) * 1 + 1 * u.val = u.val; rw [e21]; omega
  have hx : (cfg2.win 2).xinj (grid2.coords t) (ix2 p u) = ix2 p u := funext fun a => Fin.ext rfl
  refine Eq.trans (congrArg Y hx) ?_
  rw [key p u (by omega), View.read_apply, hemb]
  exact (cast_eq _ _).symm

/-- An index of the result is in point t's block iff its row is among the block's rows. -/
theorem mem_block (t : Fin cfg2.N) (i : S1600000x1.Idx) :
    i ∈ ((cfg2.win 2).blk t).view.set ↔ ∀ a : Fin 2, win2_2.index t a * S16000x1.size a ≤ (i a).val ∧ (i a).val < win2_2.index t a * S16000x1.size a + S16000x1.size a := by
  show i ∈ ((View.whole main_v54).slice (win2_2.rect t)).set ↔ _
  rw [View.set_slice_whole, Rect.mem_set_unit]
  exact Iff.rfl

/-- The result array after the region. -/
theorem result_eq (c : Dev nD) : (dat2 V c).arrAt 2 cfg2.N = Sage.edgeScore (V c main_v46) (V c main_v53) :=
  (dat2 V c).arrAt_eq_of_cover 2 _ (fun t _ => flushed_eq V c t) fun i => by
    have hi0 : (i 0).val < 1600000 := (i 0).isLt
    have hi1 : (i 1).val < 1 := (i 1).isLt
    refine ⟨⟨(i 0).val / 16000, by show (i 0).val / 16000 < 100; omega⟩, flush2_2 _, ?_⟩
    rw [mem_block]
    obtain ⟨-, -, -, -, e20, e21⟩ := block_index ⟨(i 0).val / 16000, by show (i 0).val / 16000 < 100; omega⟩
    intro a
    match a with
    | ⟨0, _⟩ =>
      show win2_2.index _ (0 : Fin 2) * 16000 ≤ (i 0).val ∧ (i 0).val < win2_2.index _ (0 : Fin 2) * 16000 + 16000
      rw [e20]; show (i 0).val / 16000 * 16000 ≤ (i 0).val ∧ (i 0).val < (i 0).val / 16000 * 16000 + 16000; omega
    | ⟨1, _⟩ =>
      show win2_2.index _ (1 : Fin 2) * 1 ≤ (i 1).val ∧ (i 1).val < win2_2.index _ (1 : Fin 2) * 1 + 1
      rw [e21]; omega

end Cert.Sage.PosRegion

end
-- ==== Proof.NegRegion.lean ====
/-
  Region 3 (the second-edge-list scores): the grid's 100 points each take rows 16000·t … 16000·t + 15999 of the two gathered
  [1600000,64] tables and write the same rows of the [1600000,1] result, so the blocks tile the result and it ends
  holding the row-by-row inner product of the two tables as the region finds them.
-/
import proofs.«152108_j27187142984033_1_alg».proof.Proof.Gen.KernelIdeal.Frame
import proofs.«152108_j27187142984033_1_alg».proof.Proof.EdgeBody
import proofs.«152108_j27187142984033_1_alg».proof.Proof.SpecRead

set_option maxRecDepth 16384

noncomputable section

namespace Cert.Sage.NegRegion

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Every window's block index at point t is (t, 0). -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- One stored entry: the body's row sum over blocks that are rows of the two tables is the score at that row. -/
theorem point_eq (hs hd : Sage.EdgeRows64) (x0 x1 : FVec Ideal S16000x64 .f32) (p : Fin 16000) (u : Fin 1) (r : Fin 1600000)
    (h0 : ∀ f : Fin 64, x0 (ix2 p f) = hs (ix2 r f)) (h1 : ∀ f : Fin 64, x1 (ix2 p f) = hd (ix2 r f)) :
    k3_pay1 (F := Ideal) x0 x1 (ix2 p u) = Sage.edgeScore hs hd (ix2 r u) := by
  rw [EdgeBody.neg_payload, Sage.edgeScore_apply]
  exact Finset.sum_congr rfl fun f _ => by rw [h0, h1]

/-- What point t writes back is block t of the score column. -/
theorem flushed_eq (c : Dev nD) (t : Fin cfg3.N) :
    (dat3 V c).flushed 2 t = ((cfg3.win 2).blk t).view.read (Elt Ideal) (Sage.edgeScore (V c main_v61) (V c main_v68)) := by
  show (cfg3.win 2).cut (grid3.coords t) ((dat3 V c).after 2 t) = _
  rw [after3_2]
  unfold out3_2
  rw [View.canon_unit_zero origin]
  simp only [View.ld_unit_zero (S := S16000x64) origin]
  obtain ⟨e00, e01, e10, e11, e20, e21⟩ := block_index t
  have ht : t.val < 100 := t.isLt
  have key : ∀ (p : Fin 16000) (u : Fin 1) (hr : t.val * 16000 + p.val < 1600000),
      k3_pay1 (F := Ideal) (iblk3 V c 0 t) (iblk3 V c 1 t) (ix2 p u)
        = Sage.edgeScore (V c main_v61) (V c main_v68) (ix2 (⟨t.val * 16000 + p.val, hr⟩ : Fin 1600000) u) := by
    intro p u hr
    have hp : p.val < 16000 := p.isLt
    refine point_eq _ _ _ _ p u _ (fun f => ?_) (fun f => ?_)
    · show V c main_v61 (((cfg3.win 0).blk t).view.emb (ix2 p f)) = V c main_v61 (ix2 (⟨t.val * 16000 + p.val, hr⟩ : Fin 1600000) f)
      refine congrArg (V c main_v61) (funext fun a => Fin.ext ?_)
      match a with
      | ⟨0, _⟩ => show win3_0.index t (0 : Fin 2) * 16000 + 1 * p.val = t.val * 16000 + p.val; rw [e00]; omega
      | ⟨1, _⟩ => show win3_0.index t (1 : Fin 2) * 64 + 1 * f.val = f.val; rw [e01]; omega
    · show V c main_v68 (((cfg3.win 1).blk t).view.emb (ix2 p f)) = V c main_v68 (ix2 (⟨t.val * 16000 + p.val, hr⟩ : Fin 1600000) f)
      refine congrArg (V c main_v68) (funext fun a => Fin.ext ?_)
      match a with
      | ⟨0, _⟩ => show win3_1.index t (0 : Fin 2) * 16000 + 1 * p.val = t.val * 16000 + p.val; rw [e10]; omega
      | ⟨1, _⟩ => show win3_1.index t (1 : Fin 2) * 64 + 1 * f.val = f.val; rw [e11]; omega
  generalize k3_pay1 (F := Ideal) (iblk3 V c 0 t) (iblk3 V c 1 t) = Y at key ⊢
  generalize Sage.edgeScore (V c main_v61) (V c main_v68) = G at key ⊢
  funext j
  obtain ⟨p, u, rfl⟩ : ∃ (p : Fin 16000) (u : Fin 1), j = ix2 p u := ⟨j 0, j 1, eq_ix2 j⟩
  have hp : p.val < 16000 := p.isLt
  have hu : u.val = 0 := by omega
  have hemb : ((cfg3.win 2).blk t).view.emb (ix2 p u) = ix2 (⟨t.val * 16000 + p.val, by omega⟩ : Fin 1600000) u := by
    funext a; apply Fin.ext
    match a with
    | ⟨0, _⟩ => show win3_2.index t (0 : Fin 2) * 16000 + 1 * p.val = t.val * 16000 + p.val; rw [e20]; omega
    | ⟨1, _⟩ => show win3_2.index t (1 : Fin 2) * 1 + 1 * u.val = u.val; rw [e21]; omega
  have hx : (cfg3.win 2).xinj (grid3.coords t) (ix2 p u) = ix2 p u := funext fun a => Fin.ext rfl
  refine Eq.trans (congrArg Y hx) ?_
  rw [key p u (by omega), View.read_apply, hemb]
  exact (cast_eq _ _).symm

/-- An index of the result is in point t's block iff its row is among the block's rows. -/
theorem mem_block (t : Fin cfg3.N) (i : S1600000x1.Idx) :
    i ∈ ((cfg3.win 2).blk t).view.set ↔ ∀ a : Fin 2, win3_2.index t a * S16000x1.size a ≤ (i a).val ∧ (i a).val < win3_2.index t a * S16000x1.size a + S16000x1.size a := by
  show i ∈ ((View.whole main_v69).slice (win3_2.rect t)).set ↔ _
  rw [View.set_slice_whole, Rect.mem_set_unit]
  exact Iff.rfl

/-- The result array after the region. -/
theorem result_eq (c : Dev nD) : (dat3 V c).arrAt 2 cfg3.N = Sage.edgeScore (V c main_v61) (V c main_v68) :=
  (dat3 V c).arrAt_eq_of_cover 2 _ (fun t _ => flushed_eq V c t) fun i => by
    have hi0 : (i 0).val < 1600000 := (i 0).isLt
    have hi1 : (i 1).val < 1 := (i 1).isLt
    refine ⟨⟨(i 0).val / 16000, by show (i 0).val / 16000 < 100; omega⟩, flush3_2 _, ?_⟩
    rw [mem_block]
    obtain ⟨-, -, -, -, e20, e21⟩ := block_index ⟨(i 0).val / 16000, by show (i 0).val / 16000 < 100; omega⟩
    intro a
    match a with
    | ⟨0, _⟩ =>
      show win3_2.index _ (0 : Fin 2) * 16000 ≤ (i 0).val ∧ (i 0).val < win3_2.index _ (0 : Fin 2) * 16000 + 16000
      rw [e20]; show (i 0).val / 16000 * 16000 ≤ (i 0).val ∧ (i 0).val < (i 0).val / 16000 * 16000 + 16000; omega
    | ⟨1, _⟩ =>
      show win3_2.index _ (1 : Fin 2) * 1 ≤ (i 1).val ∧ (i 1).val < win3_2.index _ (1 : Fin 2) * 1 + 1
      rw [e21]; omega

end Cert.Sage.NegRegion

end
-- ==== Proof.KernelValue.lean ====
/-
  The idealized kernel program's two results as the specification's scores of the launch arrays.

  The program's memory is followed from boundary to boundary: a stretch of host operations leaves each buffer it writes at
  its operation's value of the operands and every other buffer as it was; a region leaves its result table at the layer
  (or score column) of its operand tables and every other buffer as it was. No segment writes an argument, so each
  argument is read at every boundary as launched. Composing: the first region's result is the first hidden table, the
  second region's the second hidden table, the third and fourth regions' the scores of the two edge lists.
-/
import proofs.«152108_j27187142984033_1_alg».proof.Proof.Gen.KernelIdeal.Frame
import proofs.«152108_j27187142984033_1_alg».proof.Proof.Layer1Region
import proofs.«152108_j27187142984033_1_alg».proof.Proof.Layer2Region
import proofs.«152108_j27187142984033_1_alg».proof.Proof.PosRegion
import proofs.«152108_j27187142984033_1_alg».proof.Proof.NegRegion
import Idealize.ShloMosaic.Lib.StableHlo.Run

set_option maxRecDepth 16384

noncomputable section

namespace Cert.Sage.KernelValue

open Cert.KernelIdeal Cert.KernelIdeal.Gen
open Idealize.ShloMosaic Idealize.ShloMosaic.TcCoe Idealize.ShloMosaic.Tactic Idealize.SL.Sem Idealize.ShloMosaic.StableHlo

/-- A buffer that no operation of the stretch writes is after the stretch what it was before. -/
local macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## What each stretch of host operations computes, at any contents before it -/

section Stretches
variable (W : Valuation τ sig (Elt Ideal))

set_option maxHeartbeats 4000000 in
/-- Before the first region: the neighbour mean of the features. -/
theorem stretch0_mean : StableHlo.after (hostOps0 (F := Ideal)) W (Proc.devRef .tc main_v18)
    = Sage.neighbourMean (W (Proc.devRef .tc main_arg0)) (W (Proc.devRef .tc main_arg1)) (W (Proc.devRef .tc main_arg2)) := by
  dsimp only [hostOps0]; after_results_simp <;> rfl

set_option maxHeartbeats 4000000 in
/-- Before the second region: the neighbour mean of the first hidden table. -/
theorem stretch1_mean : StableHlo.after (hostOps1 (F := Ideal)) W (Proc.devRef .tc main_v38)
    = Sage.neighbourMean (W (Proc.devRef .tc main_v19)) (W (Proc.devRef .tc main_arg1)) (W (Proc.devRef .tc main_arg2)) := by
  dsimp only [hostOps1]; after_results_simp <;> rfl

set_option maxHeartbeats 4000000 in
/-- Before the third region: the second hidden table's rows at the two ends of each edge. -/
theorem stretch2_src : StableHlo.after (hostOps2 (F := Ideal)) W (Proc.devRef .tc main_v46)
    = Sage.edgeRows (W (Proc.devRef .tc main_v39)) (W (Proc.devRef .tc main_arg1)) := by
  dsimp only [hostOps2]; after_results_simp <;> rfl
set_option maxHeartbeats 4000000 in
theorem stretch2_dst : StableHlo.after (hostOps2 (F := Ideal)) W (Proc.devRef .tc main_v53)
    = Sage.edgeRows (W (Proc.devRef .tc main_v39)) (W (Proc.devRef .tc main_arg2)) := by
  dsimp only [hostOps2]; after_results_simp <;> rfl

set_option maxHeartbeats 4000000 in
/-- Before the fourth region: the same for the second edge list. -/
theorem stretch3_src : StableHlo.after (hostOps3 (F := Ideal)) W (Proc.devRef .tc main_v61)
    = Sage.edgeRows (W (Proc.devRef .tc main_v39)) (W (Proc.devRef .tc main_arg3)) := by
  dsimp only [hostOps3]; after_results_simp <;> rfl
set_option maxHeartbeats 4000000 in
theorem stretch3_dst : StableHlo.after (hostOps3 (F := Ideal)) W (Proc.devRef .tc main_v68)
    = Sage.edgeRows (W (Proc.devRef .tc main_v39)) (W (Proc.devRef .tc main_arg4)) := by
  dsimp only [hostOps3]; after_results_simp <;> rfl

end Stretches

variable (m : (ℓ : Loc nD τ sig) → Buf (Elt Ideal) ℓ) (ρ : Dev nD → PrngReg) (c : Dev nD)

/-! ## The arguments at each boundary -/

theorem W1_arg0 : W1 m ρ c (Proc.devRef .tc main_arg0) = m ((c : Thread nD τ).loc main_arg0) := by unwritten hostOps0
theorem W1_arg1 : W1 m ρ c (Proc.devRef .tc main_arg1) = m ((c : Thread nD τ).loc main_arg1) := by unwritten hostOps0
theorem W1_arg2 : W1 m ρ c (Proc.devRef .tc main_arg2) = m ((c : Thread nD τ).loc main_arg2) := by unwritten hostOps0
theorem W1_arg3 : W1 m ρ c (Proc.devRef .tc main_arg3) = m ((c : Thread nD τ).loc main_arg3) := by unwritten hostOps0
theorem W1_arg4 : W1 m ρ c (Proc.devRef .tc main_arg4) = m ((c : Thread nD τ).loc main_arg4) := by unwritten hostOps0
theorem W1_arg5 : W1 m ρ c (Proc.devRef .tc main_arg5) = m ((c : Thread nD τ).loc main_arg5) := by unwritten hostOps0
theorem W1_arg6 : W1 m ρ c (Proc.devRef .tc main_arg6) = m ((c : Thread nD τ).loc main_arg6) := by unwritten hostOps0
theorem W1_arg7 : W1 m ρ c (Proc.devRef .tc main_arg7) = m ((c : Thread nD τ).loc main_arg7) := by unwritten hostOps0
theorem W1_arg8 : W1 m ρ c (Proc.devRef .tc main_arg8) = m ((c : Thread nD τ).loc main_arg8) := by unwritten hostOps0
theorem W1_arg9 : W1 m ρ c (Proc.devRef .tc main_arg9) = m ((c : Thread nD τ).loc main_arg9) := by unwritten hostOps0
theorem W1_arg10 : W1 m ρ c (Proc.devRef .tc main_arg10) = m ((c : Thread nD τ).loc main_arg10) := by unwritten hostOps0
theorem W2_arg1 : W2 m ρ c (Proc.devRef .tc main_arg1) = m ((c : Thread nD τ).loc main_arg1) := (W2_of_ne m ρ c main_arg1 (by decide)).trans (W1_arg1 m ρ c)
theorem W2_arg2 : W2 m ρ c (Proc.devRef .tc main_arg2) = m ((c : Thread nD τ).loc main_arg2) := (W2_of_ne m ρ c main_arg2 (by decide)).trans (W1_arg2 m ρ c)
theorem W2_arg3 : W2 m ρ c (Proc.devRef .tc main_arg3) = m ((c : Thread nD τ).loc main_arg3) := (W2_of_ne m ρ c main_arg3 (by decide)).trans (W1_arg3 m ρ c)
theorem W2_arg4 : W2 m ρ c (Proc.devRef .tc main_arg4) = m ((c : Thread nD τ).loc main_arg4) := (W2_of_ne m ρ c main_arg4 (by decide)).trans (W1_arg4 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W3_arg1 : W3 m ρ c (Proc.devRef .tc main_arg1) = m ((c : Thread nD τ).loc main_arg1) := (show W3 m ρ c (Proc.devRef .tc main_arg1) = W2 m ρ c (Proc.devRef .tc main_arg1) by unwritten hostOps1).trans (W2_arg1 m ρ c)
theorem W3_arg2 : W3 m ρ c (Proc.devRef .tc main_arg2) = m ((c : Thread nD τ).loc main_arg2) := (show W3 m ρ c (Proc.devRef .tc main_arg2) = W2 m ρ c (Proc.devRef .tc main_arg2) by unwritten hostOps1).trans (W2_arg2 m ρ c)
theorem W3_arg3 : W3 m ρ c (Proc.devRef .tc main_arg3) = m ((c : Thread nD τ).loc main_arg3) := (show W3 m ρ c (Proc.devRef .tc main_arg3) = W2 m ρ c (Proc.devRef .tc main_arg3) by unwritten hostOps1).trans (W2_arg3 m ρ c)
theorem W3_arg4 : W3 m ρ c (Proc.devRef .tc main_arg4) = m ((c : Thread nD τ).loc main_arg4) := (show W3 m ρ c (Proc.devRef .tc main_arg4) = W2 m ρ c (Proc.devRef .tc main_arg4) by unwritten hostOps1).trans (W2_arg4 m ρ c)
theorem W3_arg8 : W3 m ρ c (Proc.devRef .tc main_arg8) = m ((c : Thread nD τ).loc main_arg8) := (show W3 m ρ c (Proc.devRef .tc main_arg8) = W2 m ρ c (Proc.devRef .tc main_arg8) by unwritten hostOps1).trans (W2_arg8 m ρ c)
theorem W3_arg9 : W3 m ρ c (Proc.devRef .tc main_arg9) = m ((c : Thread nD τ).loc main_arg9) := (show W3 m ρ c (Proc.devRef .tc main_arg9) = W2 m ρ c (Proc.devRef .tc main_arg9) by unwritten hostOps1).trans (W2_arg9 m ρ c)
theorem W3_arg10 : W3 m ρ c (Proc.devRef .tc main_arg10) = m ((c : Thread nD τ).loc main_arg10) := (show W3 m ρ c (Proc.devRef .tc main_arg10) = W2 m ρ c (Proc.devRef .tc main_arg10) by unwritten hostOps1).trans (W2_arg10 m ρ c)
theorem W4_arg1 : W4 m ρ c (Proc.devRef .tc main_arg1) = m ((c : Thread nD τ).loc main_arg1) := (W4_of_ne m ρ c main_arg1 (by decide)).trans (W3_arg1 m ρ c)
theorem W4_arg2 : W4 m ρ c (Proc.devRef .tc main_arg2) = m ((c : Thread nD τ).loc main_arg2) := (W4_of_ne m ρ c main_arg2 (by decide)).trans (W3_arg2 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W5_arg3 : W5 m ρ c (Proc.devRef .tc main_arg3) = m ((c : Thread nD τ).loc main_arg3) := (show W5 m ρ c (Proc.devRef .tc main_arg3) = W4 m ρ c (Proc.devRef .tc main_arg3) by unwritten hostOps2).trans (W4_arg3 m ρ c)
theorem W5_arg4 : W5 m ρ c (Proc.devRef .tc main_arg4) = m ((c : Thread nD τ).loc main_arg4) := (show W5 m ρ c (Proc.devRef .tc main_arg4) = W4 m ρ c (Proc.devRef .tc main_arg4) by unwritten hostOps2).trans (W4_arg4 m ρ c)
theorem W6_arg3 : W6 m ρ c (Proc.devRef .tc main_arg3) = m ((c : Thread nD τ).loc main_arg3) := (W6_of_ne m ρ c main_arg3 (by decide)).trans (W5_arg3 m ρ c)
theorem W6_arg4 : W6 m ρ c (Proc.devRef .tc main_arg4) = m ((c : Thread nD τ).loc main_arg4) := (W6_of_ne m ρ c main_arg4 (by decide)).trans (W5_arg4 m ρ c)

/-! ## The tables at each boundary -/

/-- After the first region: the first hidden table. -/
theorem W2_hidden1 : W2 m ρ c (Proc.devRef .tc main_v19)
    = Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W2_arr m ρ c 5).trans ((Layer1Region.result_eq (V1 m ρ) c).trans ?_)
  show Sage.layer1 (W1 m ρ c (Proc.devRef .tc main_arg0)) (W1 m ρ c (Proc.devRef .tc main_v18)) (W1 m ρ c (Proc.devRef .tc main_arg5)) (W1 m ρ c (Proc.devRef .tc main_arg6)) (W1 m ρ c (Proc.devRef .tc main_arg7)) = _
  rw [W1_arg0, W1_arg5, W1_arg6, W1_arg7, show W1 m ρ c (Proc.devRef .tc main_v18) = _ from stretch0_mean (W0 m ρ c)]
  rfl

theorem W3_hidden1 : W3 m ρ c (Proc.devRef .tc main_v19) = W2 m ρ c (Proc.devRef .tc main_v19) := by unwritten hostOps1

/-- After the second region: the second hidden table. -/
theorem W4_hidden2 : W4 m ρ c (Proc.devRef .tc main_v39)
    = Sage.hidden2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Layer2Region.result_eq (V3 m ρ) c).trans ?_)
  show Sage.layer2 (W3 m ρ c (Proc.devRef .tc main_v19)) (W3 m ρ c (Proc.devRef .tc main_v38)) (W3 m ρ c (Proc.devRef .tc main_arg8)) (W3 m ρ c (Proc.devRef .tc main_arg9)) (W3 m ρ c (Proc.devRef .tc main_arg10)) = _
  rw [W3_arg8, W3_arg9, W3_arg10, show W3 m ρ c (Proc.devRef .tc main_v38) = _ from stretch1_mean (W2 m ρ c), W3_hidden1, W2_arg1, W2_arg2, W2_hidden1]
  rfl

theorem W5_hidden2 : W5 m ρ c (Proc.devRef .tc main_v39) = W4 m ρ c (Proc.devRef .tc main_v39) := by unwritten hostOps2
theorem W6_hidden2 : W6 m ρ c (Proc.devRef .tc main_v39) = W4 m ρ c (Proc.devRef .tc main_v39) :=
  (W6_of_ne m ρ c main_v39 (by decide)).trans (W5_hidden2 m ρ c)

/-- After the third region: the scores of the graph's own edges. -/
theorem W6_pos : W6 m ρ c (Proc.devRef .tc main_v54)
    = Sage.score (m ((c : Thread nD τ).loc main_arg0)) (m ((c : Thread nD τ).loc main_arg1)) (m ((c : Thread nD τ).loc main_arg2)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 2).trans ((PosRegion.result_eq (V5 m ρ) c).trans ?_)
  show Sage.edgeScore (W5 m ρ c (Proc.devRef .tc main_v46)) (W5 m ρ c (Proc.devRef .tc main_v53)) = _
  rw [show W5 m ρ c (Proc.devRef .tc main_v46) = _ from stretch2_src (W4 m ρ c), show W5 m ρ c (Proc.devRef .tc main_v53) = _ from stretch2_dst (W4 m ρ c),
    W4_hidden2, W4_arg1, W4_arg2]
  rfl

/-- After the fourth region: the scores of the second edge list. -/
theorem W8_neg : W8 m ρ c (Proc.devRef .tc main_v69)
    = Sage.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 2).trans ((NegRegion.result_eq (V7 m ρ) c).trans ?_)
  show Sage.edgeScore (W7 m ρ c (Proc.devRef .tc main_v61)) (W7 m ρ c (Proc.devRef .tc main_v68)) = _
  rw [show W7 m ρ c (Proc.devRef .tc main_v61) = _ from stretch3_src (W6 m ρ c), show W7 m ρ c (Proc.devRef .tc main_v68) = _ from stretch3_dst (W6 m ρ c),
    W6_hidden2, W4_hidden2, W6_arg3, W6_arg4]
  rfl

/-- The first scores are still there at the end. -/
theorem W8_pos : W8 m ρ c (Proc.devRef .tc main_v54)
    = Sage.score (m ((c : Thread nD τ).loc main_arg0)) (m ((c : Thread nD τ).loc main_arg1)) (m ((c : Thread nD τ).loc main_arg2)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_of_ne m ρ c main_v54 (by decide)).trans
    ((show W7 m ρ c (Proc.devRef .tc main_v54) = W6 m ρ c (Proc.devRef .tc main_v54) by unwritten hostOps3).trans (W6_pos m ρ c))

end Cert.Sage.KernelValue

end
-- ==== Proof.lean ====
/-
  A two-layer mean-aggregating graph network scored on two edge lists: the tiled program equals the plain one on the
  extended reals.

  Both programs compute, from node features x, an edge list (src, dst), a second edge list (ns, nd) and the weights,
     mean(f)[n] = (Σ_{e : dst e = n} f[src e]) / max(deg n, 1)
     h1 = max(x·W1s + mean(x)·W1n + b1, 0),      h2 = h1·W2s + mean(h1)·W2n + b2,
     pos[e] = Σ_f h2[src e, f]·h2[dst e, f],     neg[e] = Σ_f h2[ns e, f]·h2[nd e, f].
  The gathers, the scatter-adds and the division of the neighbour mean are the same host operations in both programs and are
  never opened. What differs is how the two dense layers and the per-edge inner products are evaluated: the plain program by
  whole-array products and a row sum; the tiled one by regions that take 5000 node rows (16000 edge rows) at a time, cast the
  operands to a narrower float format — the identity on extended reals —, multiply into zero accumulators and store the block.
  Entry by entry each block holds the same sum over the contracted axis as the whole-array operation at that row, and the
  blocks tile the result, so every region's result is the layer (or score column) of its operands. No law of arithmetic beyond
  reading a product as a sum is needed — the summands, their order of association in "x·Ws + mean·Wn + b" and the zero clamp are
  the same on both sides — and so finiteness of the inputs is never used.
-/
import proofs.«152108_j27187142984033_1_alg».proof.Defs
import proofs.«152108_j27187142984033_1_alg».proof.Proof.Gen.Kernel
import proofs.«152108_j27187142984033_1_alg».proof.Proof.Gen.Kernel.Frame
import proofs.«152108_j27187142984033_1_alg».proof.Proof.Gen.KernelIdeal
import proofs.«152108_j27187142984033_1_alg».proof.Proof.Gen.KernelIdeal.Frame
import proofs.«152108_j27187142984033_1_alg».proof.Proof.Gen.ReferenceIdeal
import proofs.«152108_j27187142984033_1_alg».proof.Proof.Gen.ReferenceIdeal.Run
import proofs.«152108_j27187142984033_1_alg».proof.Proof.Gen.ReferenceIdeal.Read
import proofs.«152108_j27187142984033_1_alg».proof.Proof.Gen.Pre_finite_inputs
import proofs.«152108_j27187142984033_1_alg».proof.Proof.Spec
import proofs.«152108_j27187142984033_1_alg».proof.Proof.KernelRun
import proofs.«152108_j27187142984033_1_alg».proof.Proof.KernelValue
import Idealize.ShloMosaic.Adequacy
import Idealize.ShloMosaic.Init

noncomputable section

namespace Cert.Proof

open Idealize.ShloMosaic Idealize.ShloMosaic.TcCoe Idealize.SL.Sem

/-- The word-level program terminates without a fault and leaves its arguments unchanged. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The plain program's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with the two score columns of the specification. -/
theorem algebraic : Cert.algebraic_KernelIdeal_ReferenceIdeal := by
  intro m ρ m' ρ' _ hagree
  refine ⟨fun c => Cert.Sage.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Sage.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Sage.KernelValue.W8_pos m ρ c), (h c).2.1.trans (Cert.Sage.KernelValue.W8_neg m ρ c), (h c).2.2⟩)
      (Cert.Sage.KernelRun.run_results (F := Ideal) m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [Cert.ReferenceIdeal.Read.val_main_v67_eq, Cert.Sage.ref_pos, h0, h1, h2, h5, h6, h7, h8, h9, h10]
    · obtain ⟨h0, h1, h2, h3, h4, h5, h6, h7, h8, h9, h10⟩ := hagree c
      rw [Cert.ReferenceIdeal.Read.val_main_v84_eq, Cert.Sage.ref_neg, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
